-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S1024x256 : Shape := ⟨2, ![1024, 256]⟩
abbrev S32768 : Shape := ⟨1, ![32768]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S32768x256 .f32) (main_arg1 : FVec F S1024x256 .f32) (main_arg2 : IVec S32768 32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S32768x256 : Shape := ⟨2, ![32768, 256]⟩
abbrev S1024x256 : Shape := ⟨2, ![1024, 256]⟩
abbrev S32768 : Shape := ⟨1, ![32768]⟩
abbrev S32768x1 : Shape := ⟨2, ![32768, 1]⟩
abbrev S_ : Shape := ⟨0, ![]⟩
abbrev S1024 : Shape := ⟨1, ![1024]⟩
abbrev S1x1024 : Shape := ⟨2, ![1, 1024]⟩
abbrev S16x128 : Shape := ⟨2, ![16, 128]⟩
abbrev S1024x1 : Shape := ⟨2, ![1024, 1]⟩
abbrev S8x128 : Shape := ⟨2, ![8, 128]⟩
abbrev S256x1024 : Shape := ⟨2, ![256, 1024]⟩
abbrev S1024x1024 : Shape := ⟨2, ![1024, 1024]⟩
abbrev S1 : Shape := ⟨1, ![1]⟩
abbrev S1x1 : Shape := ⟨2, ![1, 1]⟩

abbrev nBuf : Space → Nat
  | .hbm => 17
  | .vmem => 8
  | .smem => 0
  | _ => 0

abbrev bufTy : (tb : Table) → Fin (tcTables nBuf tb) → BufTy
  | .hbm, ⟨0, _⟩ => ⟨S32768x256, .f32⟩
  | .hbm, ⟨1, _⟩ => ⟨S1024x256, .f32⟩
  | .hbm, ⟨2, _⟩ => ⟨S32768, .i32⟩
  | .hbm, ⟨3, _⟩ => ⟨S32768x1, .i32⟩
  | .hbm, ⟨4, _⟩ => ⟨S1024x256, .bf16⟩
  | .hbm, ⟨5, _⟩ => ⟨S1024x256, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S16x128, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1x1024, .f32⟩
  | .local _ .vmem, ⟨4, _⟩ => ⟨S1024x1, .i32⟩
  | .local _ .vmem, ⟨5, _⟩ => ⟨S1024x1, .i32⟩
  | .local _ .vmem, ⟨6, _⟩ => ⟨S8x128, .f32⟩
  | .local _ .vmem, ⟨7, _⟩ => ⟨S8x128, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32768_S32768x1 : S32768.ShapeCasts S32768x1
  bitsLt_bf16_f32 : FTy.bits .bf16 < FTy.bits .f32
  reducesTo_S1024x256_S1024_d1 : S1024x256.ReducesTo [1] S1024
  h_S_ : 0 < S_.numel
  bcast_S1024_S1x1024_1 : S1024.BroadcastsInDim S1x1024 (![1] : Fin 1 → Fin S1x1024.rank)
  inb_S8x128_S8x128_0_0 : ∀ a, (![0, 0] : Fin 2 → Nat) a + S8x128.size a ≤ S8x128.size a
  h_S8x128 : 0 < S8x128.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x256_p1_0_S256x1024 : S1024x256.Transposes [1, 0] S256x1024
  reduces_S1024x256_S1024 : S1024x256.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  iota_S1024x1024_d1_w32 : S1024x1024.Iotas .tc 32 [1]
  reduces_S1024x1024_S1024 : S1024x1024.Reduces [1] S1024
  reduces_S1024x1_S1 : S1024x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S16x128_S1x1_0_0 : S16x128.Slices ![0, 0] S1x1
  shapeCasts_S1x1_S_ : S1x1.ShapeCasts S_
  slices_S16x128_S1x1_8_0 : S16x128.Slices ![8, 0] S1x1
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .i32 = 32 ∨ (Rect.block (s := S32768x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x256 : Shape := ⟨2, ![32768, 256]⟩
abbrev S1024x256 : Shape := ⟨2, ![1024, 256]⟩
abbrev S32768 : Shape := ⟨1, ![32768]⟩
abbrev S_ : Shape := ⟨0, ![]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S1024x256, .f32⟩
  | .hbm, ⟨2, _⟩ => ⟨S32768, .i32⟩
  | .hbm, ⟨3, _⟩ => ⟨S32768x256, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S1024x256, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S256x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1, .i32⟩
  | .hbm, ⟨21, _⟩ => ⟨S1024, .i32⟩
  | .hbm, ⟨22, _⟩ => ⟨S1x1024, .i32⟩
  | .hbm, ⟨23, _⟩ => ⟨S32768x1024, .i32⟩
  | .hbm, ⟨24, _⟩ => ⟨S32768x1024, .i32⟩
  | .hbm, ⟨25, _⟩ => ⟨S32768x1024, .i1⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  reducesTo_S32768x256_S32768_d1 : S32768x256.ReducesTo [1] S32768
  h_S_ : 0 < S_.numel
  bcast_S32768_S32768x1_0 : S32768.BroadcastsInDim S32768x1 (![0] : Fin 1 → Fin S32768x1.rank)
  reducesTo_S1024x256_S1024_d1 : S1024x256.ReducesTo [1] S1024
  bcast_S1024_S1x1024_1 : S1024.BroadcastsInDim S1x1024 (![1] : Fin 1 → Fin S1x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  transposes_S1024x256_S256x1024_1_0 : S1024x256.Transposes [1, 0] S256x1024
  bcast_S_S32768x1024 : S_.BroadcastsInDim S32768x1024 (![] : Fin 0 → Fin S32768x1024.rank)
  reducesTo_S32768x1024_S_d0_1 : S32768x1024.ReducesTo [0, 1] S_
  dot_S32768x256_S256x1024_S32768x1024_1_0_0_1_n_n_wf : DotDims.WF S32768x256 S256x1024 S32768x1024 [1] [0] [0] [1] [] []

variable [Facts₀]

def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf

class Facts : Prop extends Facts₀ where

variable [Facts]
-- ==== Proof.ClipLaw.lean ====
/-
  The one law that joins the two programs: clamping a masked squared distance.

  The reference multiplies the distance `d` by the mask (the comparison bit read as the real `1` or `0`) and clamps the
  product to `[lo, hi]`; the kernel clamps `d` and then selects the clamped value where the bit is set and `lo` where it
  is not.  On the extended reals `d * 1 = d` and `d * 0 = 0` for every `d` (also for an infinite one), so the two agree as
  soon as `0 ≤ lo ≤ hi`: then `min hi (max lo 0) = lo`.  Both bounds are the same two float patterns in both programs;
  their values, `9223372 · 2⁻⁶³` and `999999995904`, are computed here once.
-/
import Idealize.ShloMosaic.PureOps.Ideal
import Idealize.ShloMosaic.PureOps.Ideal.Laws

noncomputable section

namespace Cert.CenterLoss

open Idealize.ShloMosaic

/-- The lower clamp bound: the float nearest `1e-12`. -/
abbrev lo : EReal := Ideal.ofBits .f32 0x2B8CBCCC#32
/-- The upper clamp bound: the float nearest `1e12`. -/
abbrev hi : EReal := Ideal.ofBits .f32 0x5368D4A5#32

/-- The lower bound's pattern denotes `9223372 · 2⁻⁶³`. -/
theorem lo_eq : lo = ((9223372 * (2 : ℝ) ^ (-63 : ℤ) : ℝ) : EReal) := by
  simp [lo, Ideal.ofBits, Ideal.ieee, -EReal.coe_mul]

/-- The upper bound's pattern denotes `999999995904`. -/
theorem hi_eq : hi = ((999999995904 : ℝ) : EReal) := by
  simp [hi, Ideal.ofBits, Ideal.ieee, -EReal.coe_mul]; norm_num

theorem lo_nonneg : (0 : EReal) ≤ lo := by
  rw [lo_eq]; exact_mod_cast (by positivity : (0 : ℝ) ≤ 9223372 * (2 : ℝ) ^ (-63 : ℤ))

theorem lo_le_hi : lo ≤ hi := by
  rw [lo_eq, hi_eq]
  have h : (9223372 * (2 : ℝ) ^ (-63 : ℤ) : ℝ) ≤ 999999995904 := by
    have h1 : (2 : ℝ) ^ (-63 : ℤ) ≤ 1 := zpow_le_one_of_nonpos₀ (by norm_num) (by norm_num)
    nlinarith
  exact_mod_cast h

/-- A masked value clamped: where the bit is set the clamp of the value itself, elsewhere the lower bound. -/
theorem clip_masked (d : EReal) (b : BitVec 1) :
    min hi (max lo (d * ((b.toNat : ℝ) : EReal))) = if b = 1#1 then min hi (max lo d) else lo := by
  have hb : b = 1#1 ∨ b = 0#1 := by
    have := b.isLt
    rcases Nat.lt_or_ge b.toNat 1 with h | h
    · right; apply BitVec.eq_of_toNat_eq; simp; omega
    · left; apply BitVec.eq_of_toNat_eq; simp; omega
  rcases hb with rfl | rfl
  · simp
  · have h0 : ((((0#1 : BitVec 1).toNat : ℕ) : ℝ) : EReal) = 0 := by simp
    rw [h0, mul_zero, max_eq_left lo_nonneg, min_eq_right lo_le_hi]
    simp

end Cert.CenterLoss

end
-- ==== Proof.Spec.lean ====
/-
  The center loss as ONE function of the three argument arrays, over the extended reals.

  For a sample `b` and a class `c` the squared distance is
      dist b c = (∑ₖ x[b,k]²  +  ∑ₖ ctr[c,k]²)  -  2 · ∑ₖ x[b,k] · ctr[c,k] .
  Each entry of the 32768 × 1024 matrix contributes `term b c`: the distance clamped to `[lo, hi]` where `c` is the
  sample's label, and the lower bound `lo` elsewhere.  The loss is the sum of all entries divided by 32768.

  The sum over all samples is also the sum over 32 consecutive groups of 1024 samples (`total_eq_points`), and a running sum
  that is reset at every 16th group and read after groups 15 and 31 adds up to the same total (`acc_total`): this is how the
  kernel walks the matrix, one group per grid point, one accumulator per core.
-/
import Idealize.ShloMosaic.Lib.ValueIdx
import proofs.«151740_j69681549410333_2_alg».proof.Proof.ClipLaw

noncomputable section

open scoped BigOperators

namespace Cert.CenterLoss

open Idealize.ShloMosaic Idealize.ShloMosaic.ValueIdx

/-- The samples' shape, the centers' shape, the labels' shape. -/
abbrev SX : Shape := ⟨2, ![32768, 256]⟩
abbrev SC : Shape := ⟨2, ![1024, 256]⟩
abbrev SL : Shape := ⟨1, ![32768]⟩

/-- The float `2.0`, kept as its pattern: the same word on both sides, never evaluated. -/
abbrev two : EReal := Ideal.ofBits .f32 0x40000000#32

variable (x : SX.Idx → EReal) (ctr : SC.Idx → EReal) (lab : SL.Idx → BitVec 32)

/-- A sample's squared norm. -/
def xsq (b : Fin 32768) : EReal := ∑ k : Fin 256, x (ix2 b k) * x (ix2 b k)
/-- A center's squared norm. -/
def csq (c : Fin 1024) : EReal := ∑ k : Fin 256, ctr (ix2 c k) * ctr (ix2 c k)
/-- A sample's inner product with a center. -/
def dot (b : Fin 32768) (c : Fin 1024) : EReal := ∑ k : Fin 256, x (ix2 b k) * ctr (ix2 c k)
/-- The squared distance, in the order both programs compute it. -/
def dist (b : Fin 32768) (c : Fin 1024) : EReal := (xsq x b + csq ctr c) - two * dot x ctr b c

/-- One entry's contribution: the clamped distance at the sample's own class, the lower bound elsewhere. -/
def term (b : Fin 32768) (c : Fin 1024) : EReal :=
  if IntOp.cmpi .eq (lab (ix1 b)) (BitVec.ofNat 32 c.val) = 1#1 then min hi (max lo (dist x ctr b c)) else lo

/-- The sum of all entries. -/
def total : EReal := ∑ b : Fin 32768, ∑ c : Fin 1024, term x ctr lab b c

/-- The loss: the total divided by the batch size (the float `32768.0`, kept as its pattern). -/
def loss : EReal := Ideal.div (total x ctr lab) (Ideal.ofBits .f32 0x47000000#32)

/-- Sample `r` of group `t`. -/
abbrev row (t : Fin 32) (r : Fin 1024) : Fin 32768 := ⟨t.val * 1024 + r.val, by have := t.isLt; have := r.isLt; omega⟩

/-- One group's share of the total: its 1024 samples' rows. -/
def pointSum (t : Fin 32) : EReal := ∑ r : Fin 1024, ∑ c : Fin 1024, term x ctr lab (row t r) c

/-- A sum over 32768 samples, group by group. -/
theorem sum_rows {M : Type*} [AddCommMonoid M] (f : Fin 32768 → M) :
    ∑ b : Fin 32768, f b = ∑ t : Fin 32, ∑ r : Fin 1024, f (row t r) := by
  rw [← Fintype.sum_prod_type']
  refine (Fintype.sum_equiv (finProdFinEquiv (m := 32) (n := 1024)) _ _ fun p => ?_).symm
  refine congrArg f (Fin.ext ?_)
  show p.1.val * 1024 + p.2.val = p.2.val + 1024 * p.1.val
  omega

theorem total_eq_points : total x ctr lab = ∑ t : Fin 32, pointSum x ctr lab t := by
  unfold total pointSum
  exact sum_rows _

/-- The running sum as the kernel keeps it: reset to `0 + P n` at every 16th group, `+ P n` otherwise. -/
def acc (P : ℕ → EReal) : ℕ → EReal
  | 0 => 0 + P 0
  | n + 1 => if (n + 1) % 16 = 0 then 0 + P (n + 1) else acc P n + P (n + 1)

/-- The two accumulators, read after groups 15 and 31, add up to the sum over all 32 groups. -/
theorem acc_total (P : ℕ → EReal) : acc P 15 + acc P 31 = ∑ t : Fin 32, P t.val := by
  simp only [acc, Fin.sum_univ_succ, Fin.sum_univ_zero, Fin.val_zero, Fin.val_succ]
  norm_num
  ac_rfl

end Cert.CenterLoss

end
-- ==== Proof.RefSpec.lean ====
/-
  The reference computes the specification.

  Read one operation at a time, the reference's result is the host quotient by `32768.0` of `0 +` the sum, over the whole
  32768 × 1024 matrix, of `min hi (max lo (d · mask))`, where `d` is the squared distance assembled from the two squared
  norms (each `0 +` a sum over the 256 features) and the matrix product, and `mask` is the comparison of the sample's label
  with the class number read as `1` or `0`.  The zeros are the extended real `0`, the clamp of the masked distance is the
  specification's `term` (the clamp law), and the sum over the matrix is the double sum over samples and classes.
-/
import proofs.«151740_j69681549410333_2_alg».proof.Proof.Gen.ReferenceIdeal.Read
import proofs.«151740_j69681549410333_2_alg».proof.Proof.Spec

noncomputable section

open scoped BigOperators

namespace Cert.CenterLoss.Ref

open Idealize.ShloMosaic Idealize.ShloMosaic.ValueIdx
open Cert.ReferenceIdeal Cert.ReferenceIdeal.Read Cert.CenterLoss

variable (x0 : S32768x256.Idx → EReal) (x1 : S1024x256.Idx → EReal) (x2 : S32768.Idx → BitVec 32)

/-- The indices the reference's layout operations compose, at entry `(b, c)` and feature `k`. -/
theorem idx_xsq (b : Fin 32768) (c : Fin 1024) (k : Fin 256) :
    idx_main_v1 (idx_main_v2 (idx_main_v6 (ix2 b c))) k = ix2 b k :=
  funext fun a => Fin.ext (by match a with | ⟨0, _⟩ => rfl | ⟨1, _⟩ => rfl)
theorem idx_csq (b : Fin 32768) (c : Fin 1024) (k : Fin 256) :
    idx_main_v4 (idx_main_v5 (idx_main_v7 (ix2 b c))) k = ix2 c k :=
  funext fun a => Fin.ext (by match a with | ⟨0, _⟩ => rfl | ⟨1, _⟩ => rfl)
theorem idx_dotl (b : Fin 32768) (c : Fin 1024) (k : Fin 256) :
    lidx_main_v10 (ix2 b c) k = ix2 b k :=
  funext fun a => Fin.ext (by match a with | ⟨0, _⟩ => rfl | ⟨1, _⟩ => rfl)
theorem idx_dotr (b : Fin 32768) (c : Fin 1024) (k : Fin 256) :
    idx_main_v9 (ridx_main_v10 (ix2 b c) k) = ix2 c k :=
  funext fun a => Fin.ext (by match a with | ⟨0, _⟩ => rfl | ⟨1, _⟩ => rfl)
theorem idx_lab (b : Fin 32768) (c : Fin 1024) :
    idx_main_v14 (idx_main_v17 (ix2 b c)) = ix1 b :=
  funext fun a => Fin.ext (by match a with | ⟨0, _⟩ => rfl)

/-- The reference's distance matrix at `(b, c)` is the specification's. -/
theorem dist_apply (b : Fin 32768) (c : Fin 1024) :
    val_main_v13 (F := Ideal) x0 x1 (ix2 b c) = dist x0 x1 b c := by
  rw [val_main_v13_apply, val_main_v8_apply, val_main_v6_apply, val_main_v2_apply, val_main_v1_apply,
    val_main_v7_apply, val_main_v5_apply, val_main_v4_apply, val_main_v12_apply, val_main_v11_apply,
    val_main_v10_apply]
  simp only [val_main_v0_apply, val_main_v3_apply, val_main_v9_apply, val_main_cst_apply, val_main_cst_0_apply,
    val_main_cst_1_apply, idx_xsq, idx_csq, idx_dotl, idx_dotr, Ideal.ofBits_def, Ideal.ofBits_zero_f32, zero_add,
    Ideal.mulf_def, Ideal.addf_def, Ideal.subf_def, dist, xsq, csq, dot]

/-- The reference's mask bit at `(b, c)`: the label compared with the class number. -/
theorem mask_apply (b : Fin 32768) (c : Fin 1024) :
    val_main_v19 (F := Ideal) x2 (ix2 b c) = IntOp.cmpi .eq (x2 (ix1 b)) (BitVec.ofNat 32 c.val) := by
  rw [val_main_v19_apply, val_main_v17_apply, val_main_v14_apply, val_main_v18_apply, val_main_v16_apply,
    val_main_v15_apply, idx_lab]

/-- The reference's clamped, masked matrix at `(b, c)` is the specification's entry. -/
theorem term_apply (b : Fin 32768) (c : Fin 1024) :
    val_main_v22 (F := Ideal) x0 x1 x2 (ix2 b c) = term x0 x1 x2 b c := by
  rw [val_main_v22_apply, val_main_call0_v4_apply, val_main_call0_v3_apply, val_main_cst_3_apply,
    val_main_call0_v2_apply, val_main_call0_v1_apply, val_main_call0_v0_apply, val_main_cst_2_apply,
    val_main_v21_apply, val_main_v20_apply, dist_apply, mask_apply]
  simp only [Ideal.ofBits_def, Ideal.minimumf_def, Ideal.maximumf_def, Ideal.mulf_def]
  exact clip_masked _ _

/-- The reference's result is the loss. -/
theorem result_eq : val_main_v24 (F := Ideal) x0 x1 x2 = fun _ => loss x0 x1 x2 := by
  funext i
  rw [val_main_v24_apply, val_main_v23_apply, val_main_cst_4_apply, val_main_cst_5_apply, sum_idx2]
  simp only [term_apply, Ideal.ofBits_def, Ideal.ofBits_zero_f32, zero_add, Ideal.hostDivf_def]
  rfl

end Cert.CenterLoss.Ref

end
-- ==== Proof.Payload.lean ====
/-
  One grid point's arithmetic, read at the ideal instance.

  At a grid point the body holds a block of 1024 samples (`v3`, 1024 × 256), the whole table of centers (`v4`, 1024 × 256,
  stored in the short format, which is the same extended real), the centers' squared norms (`v6`, 1 × 1024) and the block's
  labels (`v8`, 1024 × 1).  Its one computed value, a 1 × 1 vector, is the sum over the block's rows `r` and all classes `c`
  of the entry's contribution: the squared distance `(∑ₖ v3[r,k]² + v6[0,c]) - 2 · ∑ₖ v3[r,k] · v4[c,k]` clamped to
  `[lo, hi]` where `v8[r,0]` equals the class number, and `lo` elsewhere.

  The layout operations (the keep-dimension casts, the row and column broadcasts, the transpose) and the three lane sums and
  the matrix product are each read at an index by one small lemma over literal shapes; the pointwise operations read through
  by definition.
-/
import proofs.«151740_j69681549410333_2_alg».proof.Proof.Gen.KernelIdeal.Skeleton
import proofs.«151740_j69681549410333_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.CenterLoss.Kernel

open Idealize.ShloMosaic Idealize.ShloMosaic.ValueIdx
open Cert.KernelIdeal Cert.KernelIdeal.Gen Cert.CenterLoss

/-! ## The block's contribution, as a function of what the body loads -/

/-- The squared distance of row `r` of the block to class `c`. -/
def blkDist (v3 : S1024x256.Idx → EReal) (v4 : S1024x256.Idx → EReal) (v6 : S1x1024.Idx → EReal) (r c : Fin 1024) : EReal :=
  ((∑ k : Fin 256, v3 (ix2 r k) * v3 (ix2 r k)) + v6 (ix2 0 c)) - two * ∑ k : Fin 256, v3 (ix2 r k) * v4 (ix2 c k)

/-- The entry's contribution. -/
def blkTerm (v3 : S1024x256.Idx → EReal) (v4 : S1024x256.Idx → EReal) (v6 : S1x1024.Idx → EReal)
    (v8 : S1024x1.Idx → BitVec 32) (r c : Fin 1024) : EReal :=
  if IntOp.cmpi .eq (v8 (ix2 r 0)) (BitVec.ofNat 32 c.val) = 1#1 then min hi (max lo (blkDist v3 v4 v6 r c)) else lo

/-- The block's contribution: all its entries. -/
def blkSum (v3 : S1024x256.Idx → EReal) (v4 : S1024x256.Idx → EReal) (v6 : S1x1024.Idx → EReal)
    (v8 : S1024x1.Idx → BitVec 32) : EReal :=
  ∑ r : Fin 1024, ∑ c : Fin 1024, blkTerm v3 v4 v6 v8 r c

/-! ## The layout operations at an index -/

section Layout
variable {α : Type}

/-- A vector of 1024 entries cast to a column: entry `(r, 0)` is entry `r`. -/
theorem cast_col (v : S1024.Idx → α) (h : S1024.ShapeCasts S1024x1) (r : Fin 1024) :
    shapeCast S1024x1 v h (ix2 r 0) = v (ix1 r) :=
  shapeCast_apply v h (ix2 r 0) (ix1 r) (by
    rw [Shape.rowMajor_val_one, Shape.rowMajor_val_two]
    show r.val = r.val * 1 + 0
    omega)

/-- A vector of one entry cast to a 1 × 1 matrix. -/
theorem cast_one (v : S1.Idx → α) (h : S1.ShapeCasts S1x1) :
    shapeCast S1x1 v h (ix2 0 0) = v (ix1 0) :=
  shapeCast_apply v h (ix2 0 0) (ix1 0) (by
    rw [Shape.rowMajor_val_one, Shape.rowMajor_val_two]
    rfl)

/-- A column broadcast along the rows: entry `(r, c)` is the column's entry `(r, 0)`. -/
theorem bcast_col (v : S1024x1.Idx → α) (h : S1024x1.Broadcasts S1024x1024) (r c : Fin 1024) :
    broadcastTo S1024x1024 v h (ix2 r c) = v (ix2 r 0) :=
  broadcastTo_apply v h (ix2 r c) (ix2 r 0) (fun a => by match a with | ⟨0, _⟩ => rfl | ⟨1, _⟩ => rfl)

/-- A row broadcast down the columns: entry `(r, c)` is the row's entry `(0, c)`. -/
theorem bcast_row (v : S1x1024.Idx → α) (h : S1x1024.Broadcasts S1024x1024) (r c : Fin 1024) :
    broadcastTo S1024x1024 v h (ix2 r c) = v (ix2 0 c) :=
  broadcastTo_apply v h (ix2 r c) (ix2 0 c) (fun a => by match a with | ⟨0, _⟩ => rfl | ⟨1, _⟩ => rfl)

/-- The transpose of the table of centers: entry `(k, c)` is the table's entry `(c, k)`. -/
theorem transpose_ctr (v : S1024x256.Idx → α) (h : S1024x256.Transposes [1, 0] S256x1024) (k : Fin 256) (c : Fin 1024) :
    transpose S256x1024 [1, 0] v h (ix2 k c) = v (ix2 c k) :=
  transpose_apply [1, 0] v h (ix2 k c) (ix2 c k) (fun b => by match b with | ⟨0, _⟩ => rfl | ⟨1, _⟩ => rfl)

end Layout

/-- The class number of column `c`, as the body's iota along the columns computes it. -/
theorem iota_col (h : S1024x1024.Iotas .tc 32 [1]) (r c : Fin 1024) :
    iota .tc S1024x1024 32 [1] h (ix2 r c) = BitVec.ofNat 32 c.val := by
  show BitVec.ofNat 32 (0 * 1024 + c.val) = _
  rw [Nat.zero_mul, Nat.zero_add]

/-! ## The lane sums and the matrix product at an index -/

/-- The sum along the 256 features of row `r`. -/
theorem sum_feat (src : FVec Ideal S1024x256 .f32) (h : S1024x256.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ k : Fin 256, src (ix2 r k) :=
  (Ideal.multiReduction_add_single src 0x00000000#32 h hφ hacc (ix1 r)).trans
    (Finset.sum_congr rfl fun k _ => congrArg src (funext fun a => Fin.ext (by match a with | ⟨0, _⟩ => rfl | ⟨1, _⟩ => rfl)))

/-- The sum along the 1024 classes of row `r`. -/
theorem sum_cls (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ c : Fin 1024, src (ix2 r c) :=
  (Ideal.multiReduction_add_single src 0x00000000#32 h hφ hacc (ix1 r)).trans
    (Finset.sum_congr rfl fun k _ => congrArg src (funext fun a => Fin.ext (by match a with | ⟨0, _⟩ => rfl | ⟨1, _⟩ => rfl)))

/-- The sum down the 1024 rows of a column. -/
theorem sum_rows_col (src : FVec Ideal S1024x1 .f32) (h : S1024x1.Reduces [0] S1) (hφ : FKind.Formats .f32)
    (hacc : (0x00000000#32 : BitVec 32) = FKind.add.neutral .f32 hφ) :
    multiReduction .add [0] S1 src 0x00000000#32 h hφ hacc (ix1 0) = ∑ r : Fin 1024, src (ix2 r 0) :=
  (Ideal.multiReduction_add_single src 0x00000000#32 h hφ hacc (ix1 0)).trans
    (Finset.sum_congr rfl fun k _ => congrArg src (funext fun a => Fin.ext (by match a with | ⟨0, _⟩ => rfl | ⟨1, _⟩ => rfl)))

/-- The operands' indices of the product at `(r, c)` and contraction index `q`, axis by axis. -/
theorem lhs_ax0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem lhs_ax1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_ax0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_ax1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The matrix product into a zero accumulator, at `(r, c)`: the sum over the 256 features. -/
theorem matmul_at (lhs : FVec Ideal S1024x256 .bf16) (rhs : FVec Ideal S256x1024 .bf16) (r c : Fin 1024) :
    matmul dot_S1024x256_S256x1024_S1024x1024_1_0_0_1_n_n none lhs rhs (constant S1024x1024 .f32 0x00000000#32) (ix2 r c)
      = ∑ k : Fin 256, lhs (ix2 r k) * rhs (ix2 k c) := by
  simp only [matmul]
  rw [Ideal.matmul_constant_zero_apply,
    ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 r c)
      ((ValueIdx.contrEquiv1 dot_S1024x256_S256x1024_S1024x1024_1_0_0_1_n_n 256 rfl rfl).symm k) = ix2 r k :=
    funext fun a => Fin.ext (by
      match a with
      | ⟨0, _⟩ => exact lhs_ax0 _ _
      | ⟨1, _⟩ => exact (lhs_ax1 _ _).trans hk)
  have er : dot_S1024x256_S256x1024_S1024x1024_1_0_0_1_n_n.rhsIdx (ix2 r c)
      ((ValueIdx.contrEquiv1 dot_S1024x256_S256x1024_S1024x1024_1_0_0_1_n_n 256 rfl rfl).symm k) = ix2 k c :=
    funext fun a => Fin.ext (by
      match a with
      | ⟨0, _⟩ => exact (rhs_ax0 _ _).trans hk
      | ⟨1, _⟩ => exact rhs_ax1 _ _)
  rw [el, er]

/-! ## The body's computed value -/

/-- A comparison of integer vectors at an index compares the elements. -/
theorem cmpi_at {s : Shape} {w : Nat} (p : CmpIPredicate) (a b : IVec s w) (i : s.Idx) :
    cmpi p a b i = IntOp.cmpi p (a i) (b i) := rfl

/-- THE POINT'S VALUE: the body's 1 × 1 result is the block's contribution. -/
theorem pay3_apply (v3 : Vec Ideal S1024x256 .f32) (v4 : Vec Ideal S1024x256 .bf16) (v6 : Vec Ideal S1x1024 .f32)
    (v8 : Vec Ideal S1024x1 .i32) :
    k0_pay3 (F := Ideal) v3 v4 v6 v8 (ix2 0 0) = blkSum v3 v4 v6 v8 := by
  unfold k0_pay3 blkSum
  refine (cast_one _ _).trans ?_
  refine (sum_rows_col _ _ _ _).trans ?_
  refine Finset.sum_congr rfl fun r _ => ?_
  refine (cast_col _ _ r).trans ?_
  refine (sum_cls _ _ _ _ r).trans ?_
  refine Finset.sum_congr rfl fun c _ => ?_
  simp only [select_apply, cmpi_at, minimumf_apply, maximumf_apply, subf_apply, addf_apply, mulf_apply,
    broadcast_apply, bcast_col, bcast_row, shapeCast_self, iota_col, cast_col, sum_feat, matmul_at, transpose_ctr,
    truncf_apply]
  have e3 : ∀ k : Fin 256,
      transpose S256x1024 [1, 0] v4 transposes_S1024x256_p1_0_S256x1024 (ix2 k c) = v4 (ix2 c k) :=
    fun k => transpose_ctr v4 _ k c
  simp only [e3]
  rw [iota_col _ r c]
  refine Eq.trans (congrArg (fun z => Scalar.select _ (min _ (max _ (z + _ - _))) _) (sum_feat (mulf v3 v3) _ _ _ r)) ?_
  rfl

end Cert.CenterLoss.Kernel

end
-- ==== Proof.Blocks.lean ====
/-
  What the body loads at a grid point, read off the argument arrays.

  The grid has 32 points; point `t` belongs to core `t / 16`.  The sample window's block at `t` is rows
  `1024·t … 1024·t + 1023` of `x`, and the label window's block the same rows of the labels (reshaped to a column by the host
  before the call).  The two resident windows always hold their whole arrays: the centers in the short format (the same
  extended reals), and the row of the centers' squared norms, which the host computed as `0 +` the sum of squares over the
  256 features.  The output window's block at `t` is tile `t / 16` of the 16 × 128 result.
-/
import proofs.«151740_j69681549410333_2_alg».proof.Proof.Gen.KernelIdeal.Frame
import proofs.«151740_j69681549410333_2_alg».proof.Proof.Spec
import Idealize.ShloMosaic.Lib.ValueIdx
import Idealize.ShloMosaic.Lib.Pipeline.Value
import Idealize.ShloMosaic.Lib.StableHlo.Run
import Idealize.ShloMosaic.Lib.Tactic
import Idealize.ShloMosaic.PureOps.Ideal.Laws

noncomputable section

open scoped BigOperators

namespace Cert.CenterLoss.Kernel

open Idealize.ShloMosaic Idealize.ShloMosaic.TcCoe Idealize.SL.Sem Idealize.ShloMosaic.ValueIdx
open Cert.KernelIdeal Cert.KernelIdeal.Gen Cert.CenterLoss

variable (m : (ℓ : Loc nD τ sig) → Buf (Elt Ideal) ℓ)

/-- The printed index maps, decided once over the grid: the sample and label windows are at block `t`, the resident
    windows at block `0`, the output window at tile `t / 16`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val / 16 ∧ win0_4.index t (1 : Fin 2) = 0 :=
  (by decide +kernel : ∀ t : Fin grid0.N, _)

/-- Row `r` of point `t`'s block, as a row of the whole batch. -/
abbrev prow (t : Fin cfg0.N) (r : Fin 1024) : Fin 32768 :=
  ⟨t.val * 1024 + r.val, by have := lt_of_lt_of_eq t.isLt (show cfg0.N = 32 from N_0); have := r.isLt; omega⟩

/-! ## The arrays the host wrote before the call -/

/-- The labels as a column. -/
theorem V_labels (c : Dev nD) : (V m c main_v0 : S32768x1.Idx → Elt Ideal .i32)
    = shapeCast S32768x1 (m ((c : Thread nD τ).loc main_arg2)) shapeCasts_S32768_S32768x1 := by
  show StableHlo.after hostOps0 (fun b => m (c, b)) (Proc.devRef .tc main_v0) = _
  after_results; rfl

/-- The centers in the short format. -/
theorem V_ctr (c : Dev nD) : (V m c main_v1 : S1024x256.Idx → Elt Ideal .bf16)
    = truncf (F := Ideal) (s := S1024x256) (φ := .f32) .bf16 (m ((c : Thread nD τ).loc main_arg1)) bitsLt_bf16_f32 := by
  show StableHlo.after hostOps0 (fun b => m (c, b)) (Proc.devRef .tc main_v1) = _
  after_results

/-- The row of the centers' squared norms. -/
theorem V_csq (c : Dev nD) : (V m c main_v4 : S1x1024.Idx → Elt Ideal .f32)
    = broadcastInDim S1x1024 ![1] bcast_S1024_S1x1024_1 (Host.reduceAdd (F := Ideal)
        (mulf (m ((c : Thread nD τ).loc main_arg1)) (m ((c : Thread nD τ).loc main_arg1)))
        (constant (F := Ideal) S_ .f32 0x00000000#32) reducesTo_S1024x256_S1024_d1 h_S_) := by
  show StableHlo.after hostOps0 (fun b => m (c, b)) (Proc.devRef .tc main_v4) = _
  after_results

/-! ## The blocks at a point -/

/-- The sample window's block at `t`: rows `1024·t …` of `x`. -/
theorem blk_x (c : Dev nD) (t : Fin cfg0.N) (r : Fin 1024) (k : Fin 256) :
    (iblk m c 0 t : Vec Ideal S1024x256 .f32) (ix2 r k) = m ((c : Thread nD τ).loc main_arg0) (ix2 (prow t r) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * r.val = t.val * 1024 + r.val; rw [e0]; omega
  | ⟨1, _⟩ => show win0_0.index t (1 : Fin 2) * 256 + 1 * k.val = k.val; rw [e1]; omega

/-- The centers' window's block at any point: the whole table. -/
theorem blk_ctr (c : Dev nD) (t : Fin cfg0.N) (cc : Fin 1024) (k : Fin 256) :
    (iblk m c 1 t : Vec Ideal S1024x256 .bf16) (ix2 cc k) = m ((c : Thread nD τ).loc main_arg1) (ix2 cc k) := by
  obtain ⟨-, -, e0, e1, -⟩ := idx_facts t
  unfold iblk
  rw [View.read_apply]
  show V m c main_v1 _ = _
  rw [V_ctr]
  show m ((c : Thread nD τ).loc main_arg1) _ = _
  refine congrArg _ (funext fun a => Fin.ext ?_)
  match a with
  | ⟨0, _⟩ => show win0_1.index t (0 : Fin 2) * 1024 + 1 * cc.val = cc.val; rw [e0]; omega
  | ⟨1, _⟩ => show win0_1.index t (1 : Fin 2) * 256 + 1 * k.val = k.val; rw [e1]; omega

/-- The squared-norm window's block at any point: the whole row, each entry the center's squared norm. -/
theorem blk_csq (c : Dev nD) (t : Fin cfg0.N) (cc : Fin 1024) :
    (iblk m c 2 t : Vec Ideal S1x1024 .f32) (ix2 0 cc) = csq (m ((c : Thread nD τ).loc main_arg1)) cc := by
  obtain ⟨-, -, -, -, e0, e1, -⟩ := idx_facts t
  unfold iblk
  rw [View.read_apply]
  show V m c main_v4 _ = _
  rw [V_csq]
  have hi : ((cfg0.win 2).blk t).view.emb (ix2 (0 : Fin 1) cc) = ix2 (0 : Fin 1) cc := funext fun a => Fin.ext (by
    match a with
    | ⟨0, _⟩ => show win0_2.index t (0 : Fin 2) * 1 + 1 * 0 = 0; rw [e0]
    | ⟨1, _⟩ => show win0_2.index t (1 : Fin 2) * 1024 + 1 * cc.val = cc.val; rw [e1]; omega)
  rw [hi]
  rw [broadcastInDim_apply _ bcast_S1024_S1x1024_1 _ (ix2 (0 : Fin 1) cc) (ix1 cc) (fun a => match a with
    | ⟨0, _⟩ => by show cc.val = if (1024 : Nat) = 1 then 0 else cc.val; rw [if_neg (by decide)])]
  simp only [Host.reduceAdd, Ideal.hostReduceAdd_def]
  rw [Ideal.hostReduceAdd_single reducesTo_S1024x256_S1024_d1 (by decide)]
  show Ideal.ofBits .f32 0x00000000#32 + _ = _
  rw [Ideal.ofBits_zero_f32, zero_add]
  unfold csq
  refine Finset.sum_congr rfl fun k _ => ?_
  have hk : (Shape.Reduces.lift (by decide : S1024x256.Reduces [1] S1024) (ix1 cc) k) = ix2 cc k :=
    funext fun a => Fin.ext (by match a with | ⟨0, _⟩ => rfl | ⟨1, _⟩ => rfl)
  rw [hk]
  rfl

/-- The label window's block at `t`: the labels of rows `1024·t …`. -/
theorem blk_lab (c : Dev nD) (t : Fin cfg0.N) (r : Fin 1024) :
    (iblk m c 3 t : Vec Ideal S1024x1 .i32) (ix2 r 0) = m ((c : Thread nD τ).loc main_arg2) (ix1 (prow t r)) := by
  obtain ⟨-, -, -, -, -, -, e0, e1, -⟩ := idx_facts t
  unfold iblk
  rw [View.read_apply]
  show V m c main_v0 _ = _
  rw [V_labels]
  refine shapeCast_apply _ _ _ (ix1 (prow t r)) ?_
  rw [Shape.rowMajor_val_one, Shape.rowMajor_val_two]
  show t.val * 1024 + r.val = (win0_3.index t (0 : Fin 2) * 1024 + 1 * r.val) * 1 + (win0_3.index t (1 : Fin 2) * 1 + 1 * 0)
  rw [e0, e1]; omega

end Cert.CenterLoss.Kernel

end
-- ==== Proof.Pieces.lean ====
/-
  What one run of the body leaves at entry (0, 0) of the output tile.

  The body has two control cases.  At the first point of each core it stores zeros over the whole 8 × 128 tile, reads entry
  (0, 0) back (a zero), and stores `0 + s` there, where `s` is the point's 1 × 1 value.  At every other point it reads
  entry (0, 0) of what the point before left, `a`, and stores `a + s` there, touching nothing else.  Only entry (0, 0)
  matters: it is the one the host reads after the call.
-/
import proofs.«151740_j69681549410333_2_alg».proof.Proof.Gen.KernelIdeal.Frame
import Idealize.ShloMosaic.Lib.ValueIdx
import Idealize.ShloMosaic.Lib.Pipeline.Value
import Idealize.ShloMosaic.Lib.Tactic
import Idealize.ShloMosaic.PureOps.Ideal.Laws

noncomputable section

namespace Cert.CenterLoss.Kernel

open Idealize.ShloMosaic Idealize.ShloMosaic.TcCoe Idealize.SL.Sem Idealize.ShloMosaic.Tactic Idealize.ShloMosaic.ValueIdx
open Cert.KernelIdeal Cert.KernelIdeal.Gen

theorem hz2 : (![0, 0] : Fin 2 → Nat) = fun _ => 0 := funext fun a => by fin_cases a <;> rfl

/-- Entry (0, 0) of the tile is entry (0, 0) of the 1 × 1 rectangle at its corner. -/
theorem corner_emb : (Rect.unit (s := S8x128) ![0, 0] S1x1.size inb_S8x128_S1x1_0_0).emb (ix2 (0 : Fin 1) (0 : Fin 1))
    = (ix2 (0 : Fin 8) (0 : Fin 128) : S8x128.Idx) :=
  funext fun a => Fin.ext (by match a with | ⟨0, _⟩ => rfl | ⟨1, _⟩ => rfl)

/-- THE FIRST POINT OF A CORE leaves `0 + s` at entry (0, 0). -/
theorem out_A (c : Dev nD) (i : grid0.Coords) (arg2 : Memref sig .tc .vmem S1024x256 .f32) (harg2 : arg2.IsWhole)
    (arg3 : Memref sig .tc .vmem S1024x256 .bf16) (harg3 : arg3.IsWhole) (arg4 : Memref sig .tc .vmem S1x1024 .f32)
    (harg4 : arg4.IsWhole) (arg5 : Memref sig .tc .vmem S1024x1 .i32) (harg5 : arg5.IsWhole)
    (arg6 : Memref sig .tc .vmem S8x128 .f32) (harg6 : arg6.IsWhole) (hc0 : cond0_0 i)
    (x0 : Vec Ideal S1024x256 .f32) (x1 : Vec Ideal S1024x256 .bf16) (x2 : Vec Ideal S1x1024 .f32)
    (x3 : Vec Ideal S1024x1 .i32) :
    out0_A_4 (F := Ideal) c i arg2 harg2 arg3 harg3 arg4 harg4 arg5 harg5 arg6 harg6 hc0 x0 x1 x2 x3 (ix2 0 0)
      = (0 : EReal) + k0_pay3 (F := Ideal) x0 x1 x2 x3 (ix2 0 0) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [← corner_emb, View.canon_cons_emb]
  simp only [View.readAt_eq_ld, harg2.read_unread, harg3.read_unread, harg4.read_unread, harg5.read_unread,
    View.ld_unit_zero (S := S1024x256) hz2, View.ld_unit_zero (S := S1x1024) hz2, View.ld_unit_zero (S := S1024x1) hz2]
  rw [View.readCov_eq_canon', View.canon_unit_zero hz2]
  unfold k0_pay1 k0_pay4 k0_pay2
  simp only [shapeCast_self]
  show Ideal.ofBits .f32 0x00000000#32 + _ = _
  rw [Ideal.ofBits_zero_f32]

/-- EVERY OTHER POINT leaves `a + s` at entry (0, 0), `a` what the point before left there. -/
theorem out_B (c : Dev nD) (i : grid0.Coords) (arg2 : Memref sig .tc .vmem S1024x256 .f32) (harg2 : arg2.IsWhole)
    (arg3 : Memref sig .tc .vmem S1024x256 .bf16) (harg3 : arg3.IsWhole) (arg4 : Memref sig .tc .vmem S1x1024 .f32)
    (harg4 : arg4.IsWhole) (arg5 : Memref sig .tc .vmem S1024x1 .i32) (harg5 : arg5.IsWhole)
    (arg6 : Memref sig .tc .vmem S8x128 .f32) (harg6 : arg6.IsWhole) (hc0 : ¬cond0_0 i)
    (x0 : Vec Ideal S1024x256 .f32) (x1 : Vec Ideal S1024x256 .bf16) (x2 : Vec Ideal S1x1024 .f32)
    (x3 : Vec Ideal S1024x1 .i32) (xo4 : Vec Ideal S8x128 .f32) :
    out0_B_4 (F := Ideal) c i arg2 harg2 arg3 harg3 arg4 harg4 arg5 harg5 arg6 harg6 hc0 x0 x1 x2 x3 xo4 (ix2 0 0)
      = xo4 (ix2 0 0) + k0_pay3 (F := Ideal) x0 x1 x2 x3 (ix2 0 0) := by
  unfold out0_B_4
  unfold kernelRun0_B
  dsimp only
  sl_unfold_words
  rw [View.read_writes_apply_eq_canon _ _ _ _ ⟨_, List.mem_singleton_self _, by
    rw [Rect.mem_set_unit]
    intro a
    match a with
    | ⟨0, _⟩ => exact ⟨Nat.le_refl 0, Nat.one_pos⟩
    | ⟨1, _⟩ => exact ⟨Nat.le_refl 0, Nat.one_pos⟩⟩]
  rw [← corner_emb, View.canon_cons_emb]
  simp only [View.readAt_eq_ld, harg2.read_unread, harg3.read_unread, harg4.read_unread, harg5.read_unread,
    harg6.read_unread, View.ld_unit_zero (S := S1024x256) hz2, View.ld_unit_zero (S := S1x1024) hz2,
    View.ld_unit_zero (S := S1024x1) hz2]
  unfold k0_pay1 k0_pay4
  simp only [shapeCast_self]
  rfl

end Cert.CenterLoss.Kernel

end
-- ==== Proof.Accum.lean ====
/-
  The accumulator, point by point.

  Point `t`'s 1 × 1 value is the specification's share of group `t`: the body's loads are the group's rows of `x` and of
  the labels, the whole table of centers and the centers' squared norms (`pval_eq`).  Entry (0, 0) of the output tile
  after point `n` is the running sum `acc` of these values — `0 + P n` at the first point of a core, the previous entry
  `+ P n` at every other point — by induction on the point, the two control cases read by their piece lemmas.  The two
  tiles' entries after points 15 and 31 therefore add up to the specification's total.
-/
import proofs.«151740_j69681549410333_2_alg».proof.Proof.Payload
import proofs.«151740_j69681549410333_2_alg».proof.Proof.Blocks
import proofs.«151740_j69681549410333_2_alg».proof.Proof.Pieces

noncomputable section

open scoped BigOperators

namespace Cert.CenterLoss.Kernel

open Idealize.ShloMosaic Idealize.ShloMosaic.TcCoe Idealize.SL.Sem Idealize.ShloMosaic.ValueIdx
open Cert.KernelIdeal Cert.KernelIdeal.Gen Cert.CenterLoss

/-- A block's contribution is the group's share, once the loaded values are the group's rows, the centers, the centers'
    squared norms and the group's labels. -/
theorem blkSum_eq (v3 : S1024x256.Idx → EReal) (v4 : S1024x256.Idx → EReal) (v6 : S1x1024.Idx → EReal)
    (v8 : S1024x1.Idx → BitVec 32) (X : SX.Idx → EReal) (C : SC.Idx → EReal) (L : SL.Idx → BitVec 32) (t : Fin 32)
    (h3 : ∀ r k, v3 (ix2 r k) = X (ix2 (row t r) k)) (h4 : ∀ cc k, v4 (ix2 cc k) = C (ix2 cc k))
    (h6 : ∀ cc, v6 (ix2 0 cc) = csq C cc) (h8 : ∀ r, v8 (ix2 r 0) = L (ix1 (row t r))) :
    blkSum v3 v4 v6 v8 = pointSum X C L t := by
  unfold blkSum pointSum
  refine Finset.sum_congr rfl fun r _ => Finset.sum_congr rfl fun cc _ => ?_
  unfold blkTerm term blkDist dist xsq dot
  simp only [h3, h4, h6, h8]

variable (m : (ℓ : Loc nD τ sig) → Buf (Elt Ideal) ℓ)

/-- Point `n`'s value (zero past the grid). -/
def pval (c : Dev nD) (n : ℕ) : EReal :=
  if h : n < cfg0.N then
    k0_pay3 (F := Ideal) (iblk m c 0 ⟨n, h⟩) (iblk m c 1 ⟨n, h⟩) (iblk m c 2 ⟨n, h⟩) (iblk m c 3 ⟨n, h⟩) (ix2 0 0)
  else 0

theorem pval_of_lt (c : Dev nD) (n : ℕ) (h : n < cfg0.N) : pval m c n
    = k0_pay3 (F := Ideal) (iblk m c 0 ⟨n, h⟩) (iblk m c 1 ⟨n, h⟩) (iblk m c 2 ⟨n, h⟩) (iblk m c 3 ⟨n, h⟩) (ix2 0 0) :=
  dif_pos h

/-- It is the specification's share of group `t`. -/
theorem pval_eq (c : Dev nD) (t : Fin 32) : pval m c t.val
    = pointSum (m ((c : Thread nD τ).loc main_arg0)) (m ((c : Thread nD τ).loc main_arg1))
        (m ((c : Thread nD τ).loc main_arg2)) t := by
  have hN : cfg0.N = 32 := N_0
  have ht : t.val < cfg0.N := by rw [hN]; exact t.isLt
  rw [pval_of_lt m c t.val ht]
  exact (pay3_apply _ _ _ _).trans (blkSum_eq _ _ _ _ _ _ _ t (fun r k => blk_x m c ⟨t.val, ht⟩ r k)
    (fun cc k => blk_ctr m c ⟨t.val, ht⟩ cc k) (fun cc => blk_csq m c ⟨t.val, ht⟩ cc) (fun r => blk_lab m c ⟨t.val, ht⟩ r))

/-- Entry (0, 0) of the output tile after point `n` is the running sum. -/
theorem outsAt_eq (c : Dev nD) : ∀ (n : ℕ) (h : n < cfg0.N), outsAt0 m c n h (ix2 0 0) = acc (pval m c) n
  | 0, h => by
    rw [outsAt0_A m c ⟨0, h⟩ rfl, out_A, ← pval_of_lt m c 0 h]
    rfl
  | n + 1, h => by
    by_cases h0 : (n + 1) % 16 = 0
    · rw [outsAt0_A m c ⟨n + 1, h⟩ h0, out_A, ← pval_of_lt m c (n + 1) h]
      show _ = if (n + 1) % 16 = 0 then 0 + pval m c (n + 1) else acc (pval m c) n + pval m c (n + 1)
      rw [if_pos h0]
    · rw [outsAt0_B m c ⟨n + 1, h⟩ h0, out_B, ← pval_of_lt m c (n + 1) h]
      show outsAt0 m c n _ (ix2 0 0) + _ = if (n + 1) % 16 = 0 then 0 + pval m c (n + 1) else acc (pval m c) n + pval m c (n + 1)
      rw [if_neg h0, outsAt_eq c n]

/-- The two tiles' entries, after the last point of each core, add up to the specification's total. -/
theorem tiles_total (c : Dev nD) (h15 : 15 < cfg0.N) (h31 : 31 < cfg0.N) :
    outsAt0 m c 15 h15 (ix2 0 0) + outsAt0 m c 31 h31 (ix2 0 0)
      = total (m ((c : Thread nD τ).loc main_arg0)) (m ((c : Thread nD τ).loc main_arg1))
          (m ((c : Thread nD τ).loc main_arg2)) := by
  rw [outsAt_eq, outsAt_eq, acc_total, total_eq_points]
  exact Finset.sum_congr rfl fun t _ => pval_eq m c t

end Cert.CenterLoss.Kernel

end
-- ==== Proof.KernelRun.lean ====
/-
  The kernel's run, read: its result is the loss.

  The 16 × 128 output array is two 8 × 128 tiles, one per core, written back after the last point of each core (points 15
  and 31).  So the array ends holding, in rows 0–7, what the first core's staging buffer held after point 15, and in rows
  8–15 what the second core's held after point 31 (`final`).  The host then reads entries (0, 0) and (8, 0), adds them and
  divides by `32768.0`: the two entries add up to the specification's total, so the result is the loss.
-/
import proofs.«151740_j69681549410333_2_alg».proof.Proof.Accum

noncomputable section

open scoped BigOperators

namespace Cert.CenterLoss.Kernel

open Idealize.ShloMosaic Idealize.ShloMosaic.TcCoe Idealize.SL.Sem Idealize.ShloMosaic.ValueIdx
open Idealize.ShloMosaic.Pipeline (Dat)
open Cert.KernelIdeal Cert.KernelIdeal.Gen Cert.CenterLoss

variable (m : (ℓ : Loc nD τ sig) → Buf (Elt Ideal) ℓ) (ρ : Dev nD → PrngReg)

theorem lt15 : 15 < cfg0.N := lt_of_lt_of_eq (by decide : 15 < 32) N_0.symm
theorem lt31 : 31 < cfg0.N := lt_of_lt_of_eq (by decide : 31 < 32) N_0.symm

/-- The output array after the run: rows 0–7 from the first core's last point, rows 8–15 from the second core's. -/
def res (c : Dev nD) : S16x128.Idx → EReal := fun i =>
  if h : (i 0).val < 8 then outsAt0 m c 15 lt15 (ix2 ⟨(i 0).val, h⟩ ⟨(i 1).val, idx2_lt1 i⟩)
  else outsAt0 m c 31 lt31 (ix2 ⟨(i 0).val - 8, by have := idx2_lt0 i; omega⟩ ⟨(i 1).val, idx2_lt1 i⟩)

/-- An entry of point `t`'s output block sits in the array at row `8·(t / 16) +` its row, same column. -/
theorem emb_out (t : Fin cfg0.N) (y : S8x128.Idx) (i : S16x128.Idx) (h0 : (i 0).val = t.val / 16 * 8 + (y 0).val)
    (h1 : (i 1).val = (y 1).val) : ((cfg0.win 4).blk t).view.emb y = i := by
  obtain ⟨-, -, -, -, -, -, -, -, e0, e1⟩ := idx_facts t
  funext a; apply Fin.ext
  match a with
  | ⟨0, _⟩ => show win0_4.index t (0 : Fin 2) * 8 + 1 * (y 0).val = (i 0).val; rw [e0, h0]; omega
  | ⟨1, _⟩ => show win0_4.index t (1 : Fin 2) * 128 + 1 * (y 1).val = (i 1).val; rw [e1, h1]; omega

/-- What a flushing point writes back is its block of `res`. -/
theorem flushed_eq (c : Dev nD) (t : Fin cfg0.N) (hf : (cfg0.win 4).flush t = true) :
    (dats m 0 c).flushed 4 t = ((cfg0.win 4).blk t).view.read (Elt Ideal) (res m c) := by
  have hN : cfg0.N = 32 := N_0
  have h : t.val % 16 = 15 := (flush0_4 t).mp hf
  have ht : t.val = 15 ∨ t.val = 31 := by have := t.isLt; omega
  show (cfg0.win 4).cut (grid0.coords t) ((dats m 0 c).after 4 t) = _
  rw [after0_4]
  funext y
  rw [View.read_apply]
  have hy0 : (y 0).val < 8 := idx2_lt0 y
  have hy1 : (y 1).val < 128 := idx2_lt1 y
  rcases ht with ht | ht
  · obtain rfl : t = ⟨15, lt15⟩ := Fin.ext ht
    rw [emb_out ⟨15, lt15⟩ y (ix2 ⟨(y 0).val, by omega⟩ ⟨(y 1).val, hy1⟩) (by show (y 0).val = 15 / 16 * 8 + (y 0).val; omega) rfl]
    show outsAt0 m c 15 lt15 y = res m c _
    unfold res
    rw [dif_pos (show (y 0).val < 8 from hy0)]
    exact congrArg _ (funext fun a => Fin.ext (by match a with | ⟨0, _⟩ => rfl | ⟨1, _⟩ => rfl))
  · obtain rfl : t = ⟨31, lt31⟩ := Fin.ext ht
    rw [emb_out ⟨31, lt31⟩ y (ix2 ⟨8 + (y 0).val, by omega⟩ ⟨(y 1).val, hy1⟩) (by show 8 + (y 0).val = 31 / 16 * 8 + (y 0).val; omega) rfl]
    show outsAt0 m c 31 lt31 y = res m c _
    unfold res
    rw [dif_neg (show ¬(8 + (y 0).val < 8) by omega)]
    exact congrArg _ (funext fun a => Fin.ext (by
      match a with
      | ⟨0, _⟩ => show (y 0).val = 8 + (y 0).val - 8; omega
      | ⟨1, _⟩ => rfl))

/-- An index of the array is in point `t`'s block iff each coordinate is in the block's range. -/
theorem mem_blk_out (t : Fin cfg0.N) (i : S16x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v5).slice (win0_4.rect t)).set ↔ _
  rw [View.set_slice_whole, Rect.mem_set_unit]
  exact Iff.rfl

/-- The two flushed blocks cover the array. -/
theorem cover_out (i : S16x128.Idx) :
    ∃ t : Fin cfg0.N, (cfg0.win 4).flush t = true ∧ i ∈ ((cfg0.win 4).blk t).view.set := by
  have hi0 : (i 0).val < 16 := idx2_lt0 i
  have hi1 : (i 1).val < 128 := idx2_lt1 i
  by_cases h : (i 0).val < 8
  · refine ⟨⟨15, lt15⟩, (flush0_4 _).mpr rfl, ?_⟩
    obtain ⟨-, -, -, -, -, -, -, -, e0, e1⟩ := idx_facts ⟨15, lt15⟩
    have e0' : win0_4.index ⟨15, lt15⟩ (0 : Fin 2) = 0 := e0
    rw [mem_blk_out]
    intro a
    match a with
    | ⟨0, _⟩ => show win0_4.index ⟨15, lt15⟩ (0 : Fin 2) * 8 ≤ (i 0).val ∧ (i 0).val < win0_4.index ⟨15, lt15⟩ (0 : Fin 2) * 8 + 8; rw [e0']; omega
    | ⟨1, _⟩ => show win0_4.index ⟨15, lt15⟩ (1 : Fin 2) * 128 ≤ (i 1).val ∧ (i 1).val < win0_4.index ⟨15, lt15⟩ (1 : Fin 2) * 128 + 128; rw [e1]; omega
  · refine ⟨⟨31, lt31⟩, (flush0_4 _).mpr rfl, ?_⟩
    obtain ⟨-, -, -, -, -, -, -, -, e0, e1⟩ := idx_facts ⟨31, lt31⟩
    have e0' : win0_4.index ⟨31, lt31⟩ (0 : Fin 2) = 1 := e0
    rw [mem_blk_out]
    intro a
    match a with
    | ⟨0, _⟩ => show win0_4.index ⟨31, lt31⟩ (0 : Fin 2) * 8 ≤ (i 0).val ∧ (i 0).val < win0_4.index ⟨31, lt31⟩ (0 : Fin 2) * 8 + 8; rw [e0']; omega
    | ⟨1, _⟩ => show win0_4.index ⟨31, lt31⟩ (1 : Fin 2) * 128 ≤ (i 1).val ∧ (i 1).val < win0_4.index ⟨31, lt31⟩ (1 : Fin 2) * 128 + 128; rw [e1]; omega

/-- The output array after the run. -/
theorem final (c : Dev nD) : (dats m 0 c).arrAt 4 cfg0.N = res m c :=
  (dats m 0 c).arrAt_eq_of_cover 4 (res m c) (flushed_eq m c) cover_out

/-- Entry (0, 0) of the array is entry (0, 0) of the first core's tile; entry (8, 0) that of the second core's. -/
theorem res_00 (c : Dev nD) : res m c (ix2 (0 : Fin 16) (0 : Fin 128)) = outsAt0 m c 15 lt15 (ix2 0 0) := by
  unfold res
  rw [dif_pos (show ((ix2 (0 : Fin 16) (0 : Fin 128) : S16x128.Idx) 0).val < 8 by decide)]
  rfl
theorem res_80 (c : Dev nD) : res m c (ix2 (8 : Fin 16) (0 : Fin 128)) = outsAt0 m c 31 lt31 (ix2 0 0) := by
  unfold res
  rw [dif_neg (show ¬((ix2 (8 : Fin 16) (0 : Fin 128) : S16x128.Idx) 0).val < 8 by decide)]
  rfl

/-- The host's lines after the call, on the output array: the two entries added and divided by the batch size. -/
theorem tail_eq (c : Dev nD) : Pipeline.afterTail₀ cfgs (dats m) 0 (V0 m) [hostOps1] c main_v11
    = fun _ => loss (m ((c : Thread nD τ).loc main_arg0)) (m ((c : Thread nD τ).loc main_arg1))
        (m ((c : Thread nD τ).loc main_arg2)) := by
  unfold Pipeline.afterTail₀
  show StableHlo.after hostOps1 _ (Proc.devRef .tc main_v11) = _
  after_results
  have hw : Pipeline.withArrays (cfgs 0).spec c (V0 m c) (fun w => (dats m 0 c).arrAt w (cfgs 0).N)
      (Proc.devRef .tc main_v5) = res m c :=
    (Pipeline.withArrays_arr spec0 launch0.win.arr_inj c _ _ 4).trans (final m c)
  rw [hw]
  funext i
  show Ideal.div (shapeCast S_ (extractStridedSlice S1x1 ![0, 0] (res m c) slices_S16x128_S1x1_0_0) shapeCasts_S1x1_S_ i
      + shapeCast S_ (extractStridedSlice S1x1 ![8, 0] (res m c) slices_S16x128_S1x1_8_0) shapeCasts_S1x1_S_ i)
      (Ideal.ofBits .f32 0x47000000#32) = _
  have hrm : (S1x1.rowMajor (ix2 (0 : Fin 1) (0 : Fin 1))).val = (S_.rowMajor i).val := by
    obtain rfl := eq_ix0 i
    rfl
  rw [shapeCast_apply _ shapeCasts_S1x1_S_ i (ix2 (0 : Fin 1) (0 : Fin 1)) hrm,
    shapeCast_apply _ shapeCasts_S1x1_S_ i (ix2 (0 : Fin 1) (0 : Fin 1)) hrm,
    extractStridedSlice_apply ![0, 0] (res m c) slices_S16x128_S1x1_0_0 (ix2 (0 : Fin 1) (0 : Fin 1))
      (ix2 (0 : Fin 16) (0 : Fin 128)) (fun a => by match a with | ⟨0, _⟩ => rfl | ⟨1, _⟩ => rfl),
    extractStridedSlice_apply ![8, 0] (res m c) slices_S16x128_S1x1_8_0 (ix2 (0 : Fin 1) (0 : Fin 1))
      (ix2 (8 : Fin 16) (0 : Fin 128)) (fun a => by match a with | ⟨0, _⟩ => rfl | ⟨1, _⟩ => rfl),
    res_00, res_80, tiles_total]
  rfl

/-- THE KERNEL'S RUN, READ: every weakly fair execution terminates with the result at the loss of the argument arrays,
    the arguments unchanged. -/
theorem run : θ_run defs (onTc (τ := τ) (main (F := Ideal))) ⟨m, fun _ => 0, ρ⟩ fun r => ∀ c : Dev nD,
      r.2.mem ((c : Thread nD τ).loc main_v11)
        = (fun _ => loss (m ((c : Thread nD τ).loc main_arg0)) (m ((c : Thread nD τ).loc main_arg1))
            (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.CenterLoss.Kernel

end
-- ==== Proof.lean ====
/-
  The center loss: a fused, tiled kernel against its plain reference, equal over the extended reals.

  Both programs compute, for 32768 samples `x[b,·]`, 1024 centers `ctr[c,·]` and integer labels,
      loss = ( ∑_b ∑_c term b c ) / 32768,
  where `term b c` is the squared distance `(∑ₖ x[b,k]² + ∑ₖ ctr[c,k]²) - 2 · ∑ₖ x[b,k] · ctr[c,k]` clamped to `[lo, hi]`
  when `c` is the label of `b`, and the lower bound `lo` otherwise.

  The reference forms the whole 32768 × 1024 matrix, multiplies it by the one-hot mask, clamps and sums.  The kernel walks
  the batch in 32 groups of 1024 samples on a 2 × 16 grid, selects instead of multiplying, and keeps one running sum per
  core in entry (0, 0) of that core's output tile; the host adds the two entries and divides.  The two agree because
  clamping a masked value is selecting the clamped value (the mask is `1` or `0`, and `0 ≤ lo ≤ hi`), and because a finite
  sum of extended reals may be regrouped freely.  No finiteness of the inputs is needed for either step.

  The frames of the two kernel programs and the reference's run are the generated ones; the ideal pass rewrote nothing, so
  the idealization claim is trivial.
-/
import proofs.«151740_j69681549410333_2_alg».proof.Defs
import proofs.«151740_j69681549410333_2_alg».proof.Proof.Gen.Kernel
import proofs.«151740_j69681549410333_2_alg».proof.Proof.Gen.Kernel.Skeleton
import proofs.«151740_j69681549410333_2_alg».proof.Proof.Gen.Kernel.Launch
import proofs.«151740_j69681549410333_2_alg».proof.Proof.Gen.Kernel.Points
import proofs.«151740_j69681549410333_2_alg».proof.Proof.Gen.Kernel.Frame
import proofs.«151740_j69681549410333_2_alg».proof.Proof.Gen.KernelIdeal
import proofs.«151740_j69681549410333_2_alg».proof.Proof.Gen.KernelIdeal.Skeleton
import proofs.«151740_j69681549410333_2_alg».proof.Proof.Gen.KernelIdeal.Launch
import proofs.«151740_j69681549410333_2_alg».proof.Proof.Gen.KernelIdeal.Points
import proofs.«151740_j69681549410333_2_alg».proof.Proof.Gen.KernelIdeal.Frame
import proofs.«151740_j69681549410333_2_alg».proof.Proof.Gen.ReferenceIdeal
import proofs.«151740_j69681549410333_2_alg».proof.Proof.Gen.Pre_finite_inputs
import proofs.«151740_j69681549410333_2_alg».proof.Proof.Gen.ReferenceIdeal.Run
import proofs.«151740_j69681549410333_2_alg».proof.Proof.Gen.ReferenceIdeal.Read
import proofs.«151740_j69681549410333_2_alg».proof.Proof.RefSpec
import proofs.«151740_j69681549410333_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the three arguments, the idealized kernel and the idealized reference both end with the
    loss of those arguments as their result. -/
theorem algebraic : Cert.algebraic_KernelIdeal_ReferenceIdeal := by
  intro m ρ m' ρ' _ hagree
  refine ⟨fun c => fun _ => Cert.CenterLoss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.CenterLoss.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.CenterLoss.Ref.result_eq, (hagree c).1, (hagree c).2.1,
    (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
